-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4 : Shape := ⟨2, ![64, 4]⟩
abbrev S64x500000x4 : Shape := ⟨3, ![64, 500000, 4]⟩
abbrev S_ : Shape := ⟨0, ![]⟩

class Facts : Prop where
  bcast_S_S64x4 : S_.BroadcastsInDim S64x4 (![] : Fin 0 → Fin S64x4.rank)
  reducesTo_S64x4_S_d0_1 : S64x4.ReducesTo [0, 1] S_
  h_S_ : 0 < S_.numel
  bcast_S_S64x500000x4 : S_.BroadcastsInDim S64x500000x4 (![] : Fin 0 → Fin S64x500000x4.rank)
  reducesTo_S64x500000x4_S_d0_1_2 : S64x500000x4.ReducesTo [0, 1, 2] S_

variable [Facts]

def fn {F : FTy → Type} [FloatOps F] (main_arg0 : FVec F S64x4 .f32) (main_arg1 : FVec F S64x500000x4 .f32) : IVec S_ 1 :=
  let main_v0 : FVec F S64x4 .f32 := Host.absf main_arg0
  let main_cst : FVec F S_ .f32 := constant S_ .f32 0x7F800000#32
  let main_v1 : FVec F S64x4 .f32 := broadcastInDim S64x4 ![] bcast_S_S64x4 main_cst
  let main_v2 : IVec S64x4 1 := cmpf .olt main_v0 main_v1
  let main_c : IVec S_ 1 := constantI S_ 1 1#1
  let main_v3 : IVec S_ 1 := (fun x v => Host.reduce IntOp.andi x v reducesTo_S64x4_S_d0_1 h_S_) main_v2 main_c
  let main_v4 : FVec F S64x500000x4 .f32 := Host.absf main_arg1
  let main_cst_0 : FVec F S_ .f32 := constant S_ .f32 0x7F800000#32
  let main_v5 : FVec F S64x500000x4 .f32 := broadcastInDim S64x500000x4 ![] bcast_S_S64x500000x4 main_cst_0
  let main_v6 : IVec S64x500000x4 1 := cmpf .olt main_v4 main_v5
  let main_c_1 : IVec S_ 1 := constantI S_ 1 1#1
  let main_v7 : IVec S_ 1 := (fun x v => Host.reduce IntOp.andi x v reducesTo_S64x500000x4_S_d0_1_2 h_S_) main_v6 main_c_1
  let main_v8 : IVec S_ 1 := andi main_v3 main_v7
  main_v8
-- ==== Kernel.lean ====
abbrev S64x4 : Shape := ⟨2, ![64, 4]⟩
abbrev S64x500000x4 : Shape := ⟨3, ![64, 500000, 4]⟩
abbrev S64x1 : Shape := ⟨2, ![64, 1]⟩
abbrev S64 : Shape := ⟨1, ![64]⟩
abbrev S64x500000x1 : Shape := ⟨3, ![64, 500000, 1]⟩
abbrev S64x500000 : Shape := ⟨2, ![64, 500000]⟩
abbrev S64x7904 : Shape := ⟨2, ![64, 7904]⟩
abbrev S64x507904 : Shape := ⟨2, ![64, 507904]⟩
abbrev S32x1 : Shape := ⟨2, ![32, 1]⟩
abbrev S32x16384 : Shape := ⟨2, ![32, 16384]⟩
abbrev S32 : Shape := ⟨1, ![32]⟩
abbrev S_ : Shape := ⟨0, ![]⟩

abbrev nBuf : Space → Nat
  | .hbm => 15
  | .vmem => 6
  | .smem => 0
  | _ => 0

abbrev bufTy : (tb : Table) → Fin (tcTables nBuf tb) → BufTy
  | .hbm, ⟨0, _⟩ => ⟨S64x4, .f32⟩
  | .hbm, ⟨1, _⟩ => ⟨S64x500000x4, .f32⟩
  | .hbm, ⟨2, _⟩ => ⟨S64x1, .f32⟩
  | .hbm, ⟨3, _⟩ => ⟨S64, .f32⟩
  | .hbm, ⟨4, _⟩ => ⟨S64x500000x1, .f32⟩
  | .hbm, ⟨5, _⟩ => ⟨S64x500000, .f32⟩
  | .hbm, ⟨6, _⟩ => ⟨S64x1, .f32⟩
  | .hbm, ⟨7, _⟩ => ⟨S64x7904, .f32⟩
  | .hbm, ⟨8, _⟩ => ⟨S64x507904, .f32⟩
  | .hbm, ⟨9, _⟩ => ⟨S64x1, .f32⟩
  | .hbm, ⟨10, _⟩ => ⟨S64x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S32x1, .f32⟩
  | .local _ .vmem, ⟨1, _⟩ => ⟨S32x1, .f32⟩
  | .local _ .vmem, ⟨2, _⟩ => ⟨S32x16384, .f32⟩
  | .local _ .vmem, ⟨3, _⟩ => ⟨S32x16384, .f32⟩
  | .local _ .vmem, ⟨4, _⟩ => ⟨S32x1, .f32⟩
  | .local _ .vmem, ⟨5, _⟩ => ⟨S32x1, .f32⟩
  | _, _ => ⟨S64x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 31], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S32x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  slices_S64x4_S64x1_0_3 : S64x4.Slices ![0, 3] S64x1
  shapeCasts_S64x1_S64 : S64x1.ShapeCasts S64
  slices_S64x500000x4_S64x500000x1_0_0_3 : S64x500000x4.Slices ![0, 0, 3] S64x500000x1
  shapeCasts_S64x500000x1_S64x500000 : S64x500000x1.ShapeCasts S64x500000
  bcast_S64_S64x1_0 : S64.BroadcastsInDim S64x1 (![0] : Fin 1 → Fin S64x1.rank)
  bcast_S64x1_S64x7904_0_1 : S64x1.BroadcastsInDim S64x7904 (![0, 1] : Fin 2 → Fin S64x7904.rank)
  concatenates_S64x500000_S64x7904_S64x507904_d1 : Shape.Concatenates [S64x500000, S64x7904] S64x507904 1
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S32x16384_S32x16384_0_0 : ∀ a, (![0, 0] : Fin 2 → Nat) a + S32x16384.size a ≤ S32x16384.size a
  h_S32x16384 : 0 < S32x16384.numel
  shapeCasts_S32x16384_S32x16384 : S32x16384.ShapeCasts S32x16384
  broadcasts_S32x1_S32x16384 : S32x1.Broadcasts S32x16384
  reduces_S32x16384_S32 : S32x16384.Reduces [1] S32
  shapeCasts_S32_S32x1 : S32.ShapeCasts S32x1
  reducesTo_S64x1_S_d0_1 : S64x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1.size a ≤ S64x1.size a
  hwx0_0 : ∀ i : grid0.Coords, EltTy.bits .f32 = 32 ∨ (Rect.block (s := S64x1) S32x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x16384.size a ≤ S64x507904.size a
  hwx0_1 : ∀ i : grid0.Coords, EltTy.bits .f32 = 32 ∨ (Rect.block (s := S64x507904) S32x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S64x1.size a
  hwx0_2 : ∀ i : grid0.Coords, EltTy.bits .f32 = 32 ∨ (Rect.block (s := S64x1) S32x1.size (cc0_transform_2 i) (hinb0_2 i)).WholeWords (EltTy.packing .f32)

variable [Facts₀]

abbrev win0_0 : Pipeline.Window sig grid0 :=
  Pipeline.Window.ofSpec (Memref.whole main_v7) S32x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S32x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S32x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x4 : Shape := ⟨2, ![64, 4]⟩
abbrev S64x500000x4 : Shape := ⟨3, ![64, 500000, 4]⟩
abbrev S64x1 : Shape := ⟨2, ![64, 1]⟩
abbrev S64x1x1 : Shape := ⟨3, ![64, 1, 1]⟩
abbrev S64x500000x1 : Shape := ⟨3, ![64, 500000, 1]⟩
abbrev S_ : Shape := ⟨0, ![]⟩
abbrev S64 : Shape := ⟨1, ![64]⟩

abbrev nBuf : Space → Nat
  | .hbm => 14
  | .vmem => 0
  | .smem => 0
  | _ => 0

abbrev bufTy : (tb : Table) → Fin (tcTables nBuf tb) → BufTy
  | .hbm, ⟨0, _⟩ => ⟨S64x4, .f32⟩
  | .hbm, ⟨1, _⟩ => ⟨S64x500000x4, .f32⟩
  | .hbm, ⟨2, _⟩ => ⟨S64x1, .f32⟩
  | .hbm, ⟨3, _⟩ => ⟨S64x1x1, .f32⟩
  | .hbm, ⟨4, _⟩ => ⟨S64x500000x1, .f32⟩
  | .hbm, ⟨5, _⟩ => ⟨S64x500000x1, .f32⟩
  | .hbm, ⟨6, _⟩ => ⟨S64x500000x1, .f32⟩
  | .hbm, ⟨7, _⟩ => ⟨S64x500000x1, .f32⟩
  | .hbm, ⟨8, _⟩ => ⟨S_, .f32⟩
  | .hbm, ⟨9, _⟩ => ⟨S64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | _, _ => ⟨S64x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  slices_S64x4_S64x1_0_3 : S64x4.Slices ![0, 3] S64x1
  bcast_S64x1_S64x1x1_0_2 : S64x1.BroadcastsInDim S64x1x1 (![0, 2] : Fin 2 → Fin S64x1x1.rank)
  slices_S64x500000x4_S64x500000x1_0_0_3 : S64x500000x4.Slices ![0, 0, 3] S64x500000x1
  bcast_S64x1x1_S64x500000x1_0_1_2 : S64x1x1.BroadcastsInDim S64x500000x1 (![0, 1, 2] : Fin 3 → Fin S64x500000x1.rank)
  reducesTo_S64x500000x1_S64_d1_2 : S64x500000x1.ReducesTo [1, 2] S64
  h_S_ : 0 < S_.numel
  reducesTo_S64_S_d0 : S64.ReducesTo [0] S_

variable [Facts₀]

class Facts : Prop extends Facts₀ where

variable [Facts]
-- ==== Proof.Spec.lean ====
/-
  The arithmetic of the squared-distance loss, free of any program.

  For a row with query value `x` and points `g 0 … g 499999`, the loss row is `∑ j, (x - g j)²`.  The kernel
  pads the row to 507904 = 31 · 16384 columns with copies of `x` and adds the 31 column tiles one after the
  other.  Two facts make the two readings one number:

  * a sum over 31 tiles of 16384 columns each is the sum over all 507904 columns (`sum_tiles`);
  * a padded column contributes `(x - x)² = 0` when `x` is a real number (`sum_pad`) — at an infinite `x`
    the difference `x - x` is not zero, and this is the one place where finiteness of the input is used.

  Arrays are read at natural-number indices (a total function of the index), so that every index computation is
  plain arithmetic on ℕ.
-/
import Idealize.ShloMosaic.PureOps.Ideal
import Idealize.ShloMosaic.Lib.ValueIdx

noncomputable section

namespace Cert.SqDist

open Finset

/-- The squared difference of two extended reals. -/
def sqd (x y : EReal) : EReal := (x - y) * (x - y)

/-- A real number's squared difference with itself is zero. -/
theorem sqd_self_coe (r : ℝ) : sqd (r : EReal) (r : EReal) = 0 := by
  unfold sqd
  rw [← EReal.coe_sub, sub_self, EReal.coe_zero, mul_zero]

/-- `a` consecutive runs of `b` terms are the first `a · b` terms. -/
theorem sum_range_mul {M : Type*} [AddCommMonoid M] (F : ℕ → M) (b : ℕ) :
    ∀ a : ℕ, ∑ s ∈ range a, ∑ l ∈ range b, F (b * s + l) = ∑ j ∈ range (a * b), F j
  | 0 => by simp
  | a + 1 => by
    rw [sum_range_succ, sum_range_mul F b a, Nat.succ_mul, sum_range_add, Nat.mul_comm b a]

/-- What grid point `n` adds to row offset `r` of its row block: the squared differences over the point's
    16384 columns.  Point `n` works on row block `n / 31` and column tile `n % 31`. -/
def tile (X : ℕ → EReal) (Y : ℕ → ℕ → EReal) (n r : ℕ) : EReal :=
  ∑ l : Fin 16384, sqd (X (32 * (n / 31) + r)) (Y (32 * (n / 31) + r) (16384 * (n % 31) + l.val))

/-- The 31 points of row block `q` together add, at row offset `r`, the squared differences over the whole
    padded row `32 q + r`. -/
theorem sum_tiles (X : ℕ → EReal) (Y : ℕ → ℕ → EReal) (q r : ℕ) :
    ∑ s ∈ range 31, tile X Y (31 * q + s) r = ∑ j ∈ range 507904, sqd (X (32 * q + r)) (Y (32 * q + r) j) := by
  rw [show (507904 : ℕ) = 31 * 16384 from rfl,
    ← sum_range_mul (fun j => sqd (X (32 * q + r)) (Y (32 * q + r) j)) 16384 31]
  refine sum_congr rfl fun s hs => ?_
  have hs' : s < 31 := mem_range.mp hs
  have h1 : (31 * q + s) / 31 = q := by omega
  have h2 : (31 * q + s) % 31 = s := by omega
  unfold tile
  rw [h1, h2, sum_range]

/-- A row padded from 500000 to 507904 columns with copies of a REAL query value `x` has the squared-difference
    sum of its first 500000 columns: each padded column adds `(x - x)² = 0`. -/
theorem sum_pad (x : ℝ) (Y G : ℕ → EReal) (hlo : ∀ j, j < 500000 → Y j = G j)
    (hhi : ∀ j, 500000 ≤ j → Y j = (x : EReal)) :
    ∑ j ∈ range 507904, sqd (x : EReal) (Y j) = ∑ j ∈ range 500000, sqd (x : EReal) (G j) := by
  rw [show (507904 : ℕ) = 500000 + 7904 from rfl, sum_range_add,
    sum_eq_zero (s := range 7904) (fun j _ => by rw [hhi _ (Nat.le_add_right _ _)]; exact sqd_self_coe x),
    add_zero]
  exact sum_congr rfl fun j hj => by rw [hlo j (mem_range.mp hj)]

end Cert.SqDist

end
-- ==== Proof.KernelBody.lean ====
/-
  What one run of the kernel body leaves in the output block, and that value read at an index.

  The body works on a block of 32 rows.  It loads the 32 query values `x` (a column [32, 1]), the 32 × 16384 tile
  `g` of the padded point array and the running column `acc`, and stores

      acc[r] + ∑ l, (x[r] - g[r, l])²            (r < 32, l < 16384).

  At a point that opens a row block the body first stores the zero column and reads it back as `acc`.
-/
import proofs.«138048_j43198781063802_1_alg».proof.Proof.Gen.KernelIdeal.Frame
import proofs.«138048_j43198781063802_1_alg».proof.Proof.Spec
import Idealize.ShloMosaic.Lib.Pipeline.Value
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem Idealize.ShloMosaic.ValueIdx

namespace Cert.KernelIdeal.Body

open Cert.KernelIdeal Cert.KernelIdeal.Gen Cert.SqDist

/-! ## The two cases of the body, at any float instance -/

section Cases

variable {F : FTy → Type} [FloatOps F]

theorem hz : (![0, 0] : Fin 2 → Nat) = fun _ => 0 := funext fun a => by fin_cases a <;> rfl

/-- At a point that continues a row block, the output block holding `xo` ends holding the stored value of the
    loaded blocks and `xo`. -/
theorem out_B (c : Dev nD) (i : grid0.Coords) (a2 : Memref sig .tc .vmem S32x1 .f32) (h2 : a2.IsWhole)
    (a3 : Memref sig .tc .vmem S32x16384 .f32) (h3 : a3.IsWhole) (a4 : Memref sig .tc .vmem S32x1 .f32) (h4 : a4.IsWhole)
    (hc : ¬cond0_0 i) (x0 : Vec F S32x1 .f32) (x1 : Vec F S32x16384 .f32) (xo : Vec F S32x1 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  rw [View.canon_unit_zero hz]
  simp only [View.readAt_eq_ld, h2.read_unread, h3.read_unread, h4.read_unread,
    View.ld_unit_zero (S := S32x1) hz, View.ld_unit_zero (S := S32x16384) hz]

/-- At a point that opens a row block, the output block ends holding the stored value of the loaded blocks and the
    zero column the body has just written. -/
theorem out_A (c : Dev nD) (i : grid0.Coords) (a2 : Memref sig .tc .vmem S32x1 .f32) (h2 : a2.IsWhole)
    (a3 : Memref sig .tc .vmem S32x16384 .f32) (h3 : a3.IsWhole) (a4 : Memref sig .tc .vmem S32x1 .f32) (h4 : a4.IsWhole)
    (hc : cond0_0 i) (x0 : Vec F S32x1 .f32) (x1 : Vec F S32x16384 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S32x1) hz, View.readCov_unit_zero (S := S32x1) _ hz]
  simp only [View.readAt_eq_ld, h2.read_unread, h3.read_unread,
    View.ld_unit_zero (S := S32x1) hz, View.ld_unit_zero (S := S32x16384) hz]

end Cases

/-! ## The stored value at an index, over the extended reals -/

/-- A vector of 32 entries viewed as a column [32, 1] holds entry `r` in row `r`. -/
theorem col_of_vec {α : Type} (v : S32.Idx → α) (h : S32.ShapeCasts S32x1) (r : Fin 32) (z : Fin 1) :
    shapeCast S32x1 v h (ix2 r z) = v (ix1 r) := by
  refine shapeCast_apply v h (ix2 r z) (ix1 r) ?_
  rw [Shape.rowMajor_val_one, Shape.rowMajor_val_two]
  show r.val = r.val * 1 + z.val
  have := z.isLt
  omega

/-- A column [32, 1] broadcast along its rows to [32, 16384] holds, everywhere in row `r`, the column's entry `r`. -/
theorem bcast_col {α : Type} (v : S32x1.Idx → α) (h : S32x1.Broadcasts S32x16384) (r : Fin 32) (l : Fin 16384) :
    broadcastTo S32x16384 v h (ix2 r l) = v (ix2 r (0 : Fin 1)) := by
  refine broadcastTo_apply v h (ix2 r l) (ix2 r (0 : Fin 1)) fun ax => ?_
  match ax with
  | ⟨0, _⟩ => show r.val = if (32 : Nat) = 1 then 0 else r.val; rw [if_neg (by decide)]
  | ⟨1, _⟩ => show (0 : Nat) = if (1 : Nat) = 1 then 0 else l.val; rw [if_pos rfl]

/-- The sum along the 16384 lanes of a [32, 16384] vector, from the zero word, is at row `r` the sum of that row. -/
theorem lane_sum (v : FVec Ideal S32x16384 .f32) (h : S32x16384.Reduces [1] S32) (hφ : FKind.Formats .f32)
    (hacc : (0x00000000#32 : BitVec 32) = 0x00000000#32) (r : Fin 32) :
    multiReduction .add [1] S32 v 0x00000000#32 h hφ hacc (ix1 r) = ∑ l : Fin 16384, v (ix2 r l) := by
  refine (Ideal.multiReduction_add_single v 0x00000000#32 h hφ hacc (ix1 r)).trans ?_
  refine Finset.sum_congr rfl fun l _ => congrArg v ?_
  funext a
  match a with
  | ⟨0, _⟩ => rfl
  | ⟨1, _⟩ => rfl

/-- The zero column the body stores when it opens a row block. -/
theorem zero_apply (j : S32x1.Idx) : k0_pay1 (F := Ideal) j = Ideal.ofBits .f32 0x00000000#32 := rfl

/-- THE STORED VALUE at row `r`: the running entry plus the squared differences of the row's query value with the
    16384 entries of the tile's row. -/
theorem pay_apply (x0 : Vec Ideal S32x1 .f32) (x1 : Vec Ideal S32x16384 .f32) (acc : Vec Ideal S32x1 .f32) (r : Fin 32) :
    k0_pay2 (F := Ideal) x0 x1 acc (ix2 r (0 : Fin 1))
      = acc (ix2 r (0 : Fin 1)) + ∑ l : Fin 16384, sqd (x0 (ix2 r (0 : Fin 1))) (x1 (ix2 r l)) := by
  have hd : ∀ l : Fin 16384,
      (subf (broadcastTo S32x16384 (shapeCast S32x1 x0 shapeCasts_S32x1_S32x1) broadcasts_S32x1_S32x16384)
        (shapeCast S32x16384 x1 shapeCasts_S32x16384_S32x16384) : FVec Ideal S32x16384 .f32) (ix2 r l)
        = x0 (ix2 r (0 : Fin 1)) - x1 (ix2 r l) := fun l =>
    (subf_apply _ _ _).trans (congrArg₂ (· - ·)
      ((bcast_col _ _ r l).trans (congrFun (shapeCast_self x0 _) _)) (congrFun (shapeCast_self x1 _) _))
  unfold k0_pay2
  dsimp only
  refine (addf_apply _ _ _).trans ?_
  refine congrArg₂ (· + ·) (congrFun (shapeCast_self acc _) _) ?_
  refine (col_of_vec _ _ r 0).trans ((lane_sum _ _ _ _ r).trans (Finset.sum_congr rfl fun l _ => ?_))
  exact (mulf_apply _ _ _).trans (congrArg₂ (· * ·) (hd l) (hd l))

end Cert.KernelIdeal.Body

end
-- ==== Proof.KernelAcc.lean ====
/-
  What the output block holds after each grid point: the running sum over the column tiles visited so far.

  The grid has 2 × 31 points; point `n` works on row block `n / 31` (rows `32 (n / 31) … 32 (n / 31) + 31`) and on
  column tile `n % 31` (columns `16384 (n % 31) … 16384 (n % 31) + 16383`).  The output block is reset when
  `n % 31 = 0` and otherwise carried over from the point before, so after point `n` its row `r` holds

      0 + ∑ s ≤ n % 31, tile (31 (n / 31) + s) r,

  the sum of what the points of the same row block have added so far.
-/
import proofs.«138048_j43198781063802_1_alg».proof.Proof.KernelBody

noncomputable section

open Idealize.ShloMosaic Idealize.ShloMosaic.TcCoe Idealize.SL.Sem Idealize.ShloMosaic.ValueIdx

namespace Cert.KernelIdeal.Acc

open Cert.KernelIdeal Cert.KernelIdeal.Gen Cert.KernelIdeal.Body Cert.SqDist

variable (m : (ℓ : Loc nD τ sig) → Buf (Elt Ideal) ℓ)

/-- The block index of each window at each of the 62 points: the row block is `t / 31`; the second window also moves
    along the columns, to tile `t % 31`. -/
theorem idx_facts : ∀ t : Fin cfg0.N,
    win0_0.index t (0 : Fin 2) = t.val / 31 ∧ win0_0.index t (1 : Fin 2) = 0
    ∧ win0_1.index t (0 : Fin 2) = t.val / 31 ∧ win0_1.index t (1 : Fin 2) = t.val % 31
    ∧ win0_2.index t (0 : Fin 2) = t.val / 31 ∧ win0_2.index t (1 : Fin 2) = 0 :=
  (by decide +kernel : ∀ t : Fin grid0.N,
    win0_0.index t (0 : Fin 2) = t.val / 31 ∧ win0_0.index t (1 : Fin 2) = 0
    ∧ win0_1.index t (0 : Fin 2) = t.val / 31 ∧ win0_1.index t (1 : Fin 2) = t.val % 31
    ∧ win0_2.index t (0 : Fin 2) = t.val / 31 ∧ win0_2.index t (1 : Fin 2) = 0)

/-- The query column as the region finds it, read at a natural row index (zero past the array). -/
def qAt (c : Dev nD) (p : ℕ) : EReal :=
  if h : p < 64 then (V m c main_v7 : S64x1.Idx → EReal) (ix2 (⟨p, h⟩ : Fin 64) (0 : Fin 1)) else 0

/-- The padded point rows as the region finds them, read at natural indices (zero past the array). -/
def gAt (c : Dev nD) (p q : ℕ) : EReal :=
  if h : p < 64 ∧ q < 507904 then
    (V m c main_v6 : S64x507904.Idx → EReal) (ix2 (⟨p, h.1⟩ : Fin 64) (⟨q, h.2⟩ : Fin 507904)) else 0

/-- Row `r` of the first window's block at point `t` is row `32 (t / 31) + r` of the query column. -/
theorem iblk0_apply (c : Dev nD) (t : Fin cfg0.N) (r : Fin 32) (z : Fin 1) :
    (iblk m c 0 t : Vec Ideal S32x1 .f32) (ix2 r z) = qAt m c (32 * (t.val / 31) + r.val) := by
  have hN : t.val < 62 := lt_of_lt_of_eq t.isLt (show cfg0.N = 62 from N_0)
  have hp : 32 * (t.val / 31) + r.val < 64 := by have := r.isLt; omega
  unfold qAt
  rw [dif_pos hp]
  obtain ⟨e0, e1, -⟩ := idx_facts t
  show V m c main_v7 (((cfg0.win 0).blk t).view.emb (ix2 r z))
    = V m c main_v7 (ix2 (⟨32 * (t.val / 31) + r.val, hp⟩ : Fin 64) (0 : Fin 1))
  refine congrArg (V m c main_v7) (funext fun a => Fin.ext ?_)
  match a with
  | ⟨0, _⟩ => show win0_0.index t (0 : Fin 2) * 32 + 1 * r.val = 32 * (t.val / 31) + r.val; rw [e0]; omega
  | ⟨1, _⟩ => show win0_0.index t (1 : Fin 2) * 1 + 1 * z.val = 0; rw [e1]; have := z.isLt; omega

/-- Entry `(r, l)` of the second window's block at point `t` is entry `(32 (t / 31) + r, 16384 (t % 31) + l)` of the
    padded point rows. -/
theorem iblk1_apply (c : Dev nD) (t : Fin cfg0.N) (r : Fin 32) (l : Fin 16384) :
    (iblk m c 1 t : Vec Ideal S32x16384 .f32) (ix2 r l)
      = gAt m c (32 * (t.val / 31) + r.val) (16384 * (t.val % 31) + l.val) := by
  have hN : t.val < 62 := lt_of_lt_of_eq t.isLt (show cfg0.N = 62 from N_0)
  have hp : 32 * (t.val / 31) + r.val < 64 ∧ 16384 * (t.val % 31) + l.val < 507904 := by
    have := r.isLt; have := l.isLt; omega
  unfold gAt
  rw [dif_pos hp]
  obtain ⟨-, -, e0, e1, -⟩ := idx_facts t
  show V m c main_v6 (((cfg0.win 1).blk t).view.emb (ix2 r l))
    = V m c main_v6 (ix2 (⟨32 * (t.val / 31) + r.val, hp.1⟩ : Fin 64) (⟨16384 * (t.val % 31) + l.val, hp.2⟩ : Fin 507904))
  refine congrArg (V m c main_v6) (funext fun a => Fin.ext ?_)
  match a with
  | ⟨0, _⟩ => show win0_1.index t (0 : Fin 2) * 32 + 1 * r.val = 32 * (t.val / 31) + r.val; rw [e0]; omega
  | ⟨1, _⟩ =>
    show win0_1.index t (1 : Fin 2) * 16384 + 1 * l.val = 16384 * (t.val % 31) + l.val; rw [e1]; omega

/-- ONE STEP: at point `n` the body adds to every row of the running column that point's tile sum. -/
theorem step_apply (c : Dev nD) (n : ℕ) (h : n < cfg0.N) (acc : Vec Ideal S32x1 .f32) (i : S32x1.Idx) :
    k0_pay2 (F := Ideal) (iblk m c 0 ⟨n, h⟩) (iblk m c 1 ⟨n, h⟩) acc i
      = acc i + tile (qAt m c) (gAt m c) n (i 0).val := by
  obtain ⟨r, z, rfl⟩ : ∃ (r : Fin 32) (z : Fin 1), i = ix2 r z := ⟨i 0, i 1, eq_ix2 i⟩
  obtain rfl : z = 0 := Subsingleton.elim _ _
  refine (pay_apply (iblk m c 0 ⟨n, h⟩) (iblk m c 1 ⟨n, h⟩) acc r).trans ?_
  refine congrArg (acc (ix2 r (0 : Fin 1)) + ·) ?_
  unfold tile
  refine Finset.sum_congr rfl fun l _ => ?_
  exact congrArg₂ sqd (iblk0_apply m c ⟨n, h⟩ r 0) (iblk1_apply m c ⟨n, h⟩ r l)

/-- THE FIRST STEP of a row block: the same over the zero column the body has just stored. -/
theorem open_apply (c : Dev nD) (n : ℕ) (h : n < cfg0.N) (i : S32x1.Idx) :
    k0_pay2 (F := Ideal) (iblk m c 0 ⟨n, h⟩) (iblk m c 1 ⟨n, h⟩) (k0_pay1 (F := Ideal)) i
      = Ideal.ofBits .f32 0x00000000#32 + tile (qAt m c) (gAt m c) n (i 0).val :=
  (step_apply m c n h (k0_pay1 (F := Ideal)) i).trans
    (congrArg (· + tile (qAt m c) (gAt m c) n (i 0).val) (zero_apply i))

/-- THE RUNNING SUM: after point `t` the output block's row `i` holds the zero it was reset to plus the tile sums of
    the points of its row block up to `t`. -/
theorem outs_apply (c : Dev nD) (t : Fin cfg0.N) (i : S32x1.Idx) :
    outsAt0 m c t.val t.isLt i
      = Ideal.ofBits .f32 0x00000000#32
        + ∑ s ∈ Finset.range (t.val % 31 + 1), tile (qAt m c) (gAt m c) (31 * (t.val / 31) + s) (i 0).val := by
  have h' : 31 * (t.val / 31) + t.val % 31 < cfg0.N := by rw [Nat.div_add_mod]; exact t.isLt
  refine (congrFun (Pipeline.eq_accAt_of_mod (outsAt0 m c) 31
    (fun n h => k0_pay2 (F := Ideal) (iblk m c 0 ⟨n, h⟩) (iblk m c 1 ⟨n, h⟩) (k0_pay1 (F := Ideal)))
    (fun n h acc => k0_pay2 (F := Ideal) (iblk m c 0 ⟨n, h⟩) (iblk m c 1 ⟨n, h⟩) acc)
    (fun n h h0 => (outsAt0_A m c ⟨n, h⟩ h0).trans
      (out_A c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
        ((hcond0_0 ⟨n, h⟩).mpr h0) (iblk m c 0 ⟨n, h⟩) (iblk m c 1 ⟨n, h⟩)))
    (fun n h hB => (outsAt0_B m c ⟨n + 1, h⟩ hB).trans
      (out_B c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (fun hh => hB ((hcond0_0 ⟨n + 1, h⟩).mp hh))
        (iblk m c 0 ⟨n + 1, h⟩) (iblk m c 1 ⟨n + 1, h⟩) (outsAt0 m c n (Nat.lt_of_succ_lt h))))
    (by decide) t.val t.isLt h') i).trans ?_
  have ha : ∀ (h : 31 * (t.val / 31) < cfg0.N) (i : S32x1.Idx),
      k0_pay2 (F := Ideal) (iblk m c 0 ⟨31 * (t.val / 31), h⟩) (iblk m c 1 ⟨31 * (t.val / 31), h⟩) (k0_pay1 (F := Ideal)) i
        = Ideal.ofBits .f32 0x00000000#32 + tile (qAt m c) (gAt m c) (31 * (t.val / 31)) (i 0).val :=
    fun h i => open_apply m c (31 * (t.val / 31)) h i
  have hg : ∀ (n : ℕ) (h : n < cfg0.N) (acc : S32x1.Idx → EReal) (i : S32x1.Idx),
      31 * (t.val / 31) < n → n ≤ 31 * (t.val / 31) + 30 →
      k0_pay2 (F := Ideal) (iblk m c 0 ⟨n, h⟩) (iblk m c 1 ⟨n, h⟩) acc i
        = acc i + tile (qAt m c) (gAt m c) n (i 0).val :=
    fun n h acc i _ _ => step_apply m c n h acc i
  have hj : t.val % 31 ≤ 30 := by omega
  exact Pipeline.accAt_add_apply
    (fun n h => k0_pay2 (F := Ideal) (iblk m c 0 ⟨n, h⟩) (iblk m c 1 ⟨n, h⟩) (k0_pay1 (F := Ideal)))
    (fun n h acc => k0_pay2 (F := Ideal) (iblk m c 0 ⟨n, h⟩) (iblk m c 1 ⟨n, h⟩) acc)
    (fun _ => Ideal.ofBits .f32 0x00000000#32)
    (fun n (i : S32x1.Idx) => tile (qAt m c) (gAt m c) n (i 0).val) (31 * (t.val / 31)) 30 ha hg
    (t.val % 31) hj h' i

end Cert.KernelIdeal.Acc

end
-- ==== Proof.Loss.lean ====
/-
  The loss both programs compute, as one number of the two argument arrays.

  For `out_pc : [64, 4]` and `gt_pc : [64, 500000, 4]` only channel 3 takes part:

      loss = ( 0 + ∑ p < 64, ( 0 + ∑ j < 500000, (out_pc[p, 3] - gt_pc[p, j, 3])² ) ) / 64.

  The two zeros are the float word `+0.0` both programs start their sums from, and the divisor is the float word
  of `64.0`; they are kept as the words they are, the same on both sides.
-/
import proofs.«138048_j43198781063802_1_alg».proof.Proof.Spec

noncomputable section

open Idealize.ShloMosaic Idealize.ShloMosaic.ValueIdx

namespace Cert.SqDist

open Finset

/-- Channel 3 of row `p` of the point array, read at a natural column index (zero past the row). -/
def ptAt (a1 : (⟨3, ![64, 500000, 4]⟩ : Shape).Idx → EReal) (p : Fin 64) (j : ℕ) : EReal :=
  if h : j < 500000 then a1 (ix3 p (⟨j, h⟩ : Fin 500000) (3 : Fin 4)) else 0

/-- One row's loss: the squared differences of the query value `x` with the row's 500000 points, from the zero word. -/
def lossRow (x : EReal) (G : ℕ → EReal) : EReal :=
  Ideal.ofBits .f32 0x00000000#32 + ∑ j ∈ range 500000, sqd x (G j)

/-- The mean of 64 row values as both programs form it: their sum from the zero word, divided by the word of 64.0. -/
def mean64 (row : Fin 64 → EReal) : EReal :=
  Ideal.div (Ideal.ofBits .f32 0x00000000#32 + ∑ p : Fin 64, row p) (Ideal.ofBits .f32 0x42800000#32)

/-- THE LOSS. -/
def loss (a0 : (⟨2, ![64, 4]⟩ : Shape).Idx → EReal) (a1 : (⟨3, ![64, 500000, 4]⟩ : Shape).Idx → EReal) : EReal :=
  mean64 fun p => lossRow (a0 (ix2 p (3 : Fin 4))) (ptAt a1 p)

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over a column [n, 1] is the sum over its rows. -/
theorem sum_col {M : Type*} [AddCommMonoid M] {n : Nat} (f : (⟨2, ![n, 1]⟩ : Shape).Idx → M) :
    ∑ i, f i = ∑ a : Fin n, f (ix2 a (0 : Fin 1)) := by
  rw [sum_idx2]
  exact sum_congr rfl fun a _ => Fin.sum_univ_one _

end Cert.SqDist

end
-- ==== Proof.KernelValue.lean ====
/-
  The kernel program's result as a function of what the region finds.

  The region writes its output block back once per row block, after the last column tile (points 30 and 61).  By then
  row `r` of the block holds the zero word plus the 31 tile sums of its row, which together are the sum of squared
  differences over the whole padded row (`SqDist.sum_tiles`).  The two blocks fill the output array [64, 1]; the
  program then sums that array from the zero word and divides by the word of 64.0.
-/
import proofs.«138048_j43198781063802_1_alg».proof.Proof.KernelAcc
import proofs.«138048_j43198781063802_1_alg».proof.Proof.Loss
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.KernelIdeal.Acc Cert.SqDist

variable (m : (ℓ : Loc nD τ sig) → Buf (Elt Ideal) ℓ) (ρ : Dev nD → PrngReg)

/-- The column the region leaves in its output array: in each row, the zero word plus the squared differences of the
    row's query value with its whole padded row. -/
def lossCol (c : Dev nD) : S64x1.Idx → EReal := fun i =>
  Ideal.ofBits .f32 0x00000000#32 + ∑ j ∈ Finset.range 507904, sqd (qAt m c (i 0).val) (gAt m c (i 0).val j)

/-- Row `32 q + r` of that column is the zero word plus the 31 tile sums of row block `q` at row offset `r`. -/
theorem lossCol_apply (c : Dev nD) (i : S64x1.Idx) (q r : ℕ) (h : (i 0).val = 32 * q + r) :
    lossCol m c i
      = Ideal.ofBits .f32 0x00000000#32 + ∑ s ∈ Finset.range 31, tile (qAt m c) (gAt m c) (31 * q + s) r := by
  unfold lossCol
  rw [h, sum_tiles]

/-- WHAT A WRITE-BACK WRITES: at the last column tile of a row block, the block of `lossCol`. -/
theorem flushed_eq (c : Dev nD) (t : Fin cfg0.N) (hf : (cfg0.win 2).flush t = true) :
    (dats m 0 c).flushed 2 t = ((cfg0.win 2).blk t).view.read (Elt Ideal) (lossCol m c) := by
  have h30 : t.val % 31 = 30 := (flush0_2 t).mp hf
  obtain ⟨-, -, -, -, e0, -⟩ := idx_facts t
  show (cfg0.win 2).cut (grid0.coords t) ((dats m 0 c).after 2 t) = _
  rw [after0_2]
  refine funext fun (y : S32x1.Idx) => ?_
  show outsAt0 m c t.val t.isLt y = lossCol m c (((cfg0.win 2).blk t).view.emb y)
  rw [outs_apply m c t y, h30]
  refine (lossCol_apply m c _ (t.val / 31) (y 0).val ?_).symm
  show win0_2.index t (0 : Fin 2) * 32 + 1 * (y 0).val = 32 * (t.val / 31) + (y 0).val
  rw [e0]
  omega

/-- An index of the output array is in point `t`'s block iff each coordinate is in the block's range on its axis. -/
theorem mem_blk (t : Fin cfg0.N) (i : S64x1.Idx) :
    i ∈ ((cfg0.win 2).blk t).view.set
      ↔ ∀ a : Fin 2, win0_2.index t a * S32x1.size a ≤ (i a).val ∧ (i a).val < win0_2.index t a * S32x1.size a + S32x1.size a := by
  show i ∈ ((View.whole main_v8).slice (win0_2.rect t)).set ↔ _
  rw [View.set_slice_whole, Rect.mem_set_unit]
  exact Iff.rfl

/-- Every row of the output array is written back: row `p` at the last column tile of row block `p / 32`. -/
theorem cover (i : S64x1.Idx) :
    ∃ t : Fin cfg0.N, (cfg0.win 2).flush t = true ∧ i ∈ ((cfg0.win 2).blk t).view.set := by
  have hi0 : (i 0).val < 64 := (i 0).isLt
  have hi1 : (i 1).val < 1 := (i 1).isLt
  have hN : cfg0.N = 62 := N_0
  obtain ⟨t, ht⟩ : ∃ t : Fin cfg0.N, t.val = 31 * ((i 0).val / 32) + 30 :=
    ⟨⟨31 * ((i 0).val / 32) + 30, by rw [hN]; omega⟩, rfl⟩
  obtain ⟨-, -, -, -, e0, e1⟩ := idx_facts t
  refine ⟨t, (flush0_2 t).mpr (by rw [ht]; omega), ?_⟩
  rw [mem_blk]
  intro a
  match a with
  | ⟨0, _⟩ =>
    show win0_2.index t (0 : Fin 2) * 32 ≤ (i 0).val ∧ (i 0).val < win0_2.index t (0 : Fin 2) * 32 + 32
    rw [e0, ht]; omega
  | ⟨1, _⟩ =>
    show win0_2.index t (1 : Fin 2) * 1 ≤ (i 1).val ∧ (i 1).val < win0_2.index t (1 : Fin 2) * 1 + 1
    rw [e1]; omega

/-- THE OUTPUT ARRAY after the region is `lossCol`. -/
theorem final (c : Dev nD) : (dats m 0 c).arrAt 2 cfg0.N = lossCol m c :=
  (dats m 0 c).arrAt_eq_of_cover 2 (lossCol m c) (flushed_eq m c) (fun i => cover i)

/-- THE PROGRAM'S RESULT: the mean, as the host forms it, of the rows of `lossCol`. -/
theorem result_eq (c : Dev nD) :
    (Pipeline.afterTail₀ cfgs (dats m) 0 (V0 m) [hostOps1] c main_v10 : S_.Idx → EReal)
      = fun _ => mean64 fun p => lossCol m c (ix2 p (0 : Fin 1)) := by
  have hw : Pipeline.withArrays (cfgs 0).spec c (V0 m c) (fun w => (dats m 0 c).arrAt w (cfgs 0).N) (Proc.devRef .tc main_v8)
      = lossCol m c :=
    (Pipeline.withArrays_arr spec0 launch0.win.arr_inj c _ _ 2).trans (final m c)
  unfold Pipeline.afterTail₀
  show StableHlo.after hostOps1 _ (Proc.devRef .tc main_v10) = _
  after_results
  rw [hw]
  funext i
  show Ideal.div (Ideal.hostReduceAdd reducesTo_S64x1_S_d0_1 (lossCol m c) (Ideal.ofBits .f32 0x00000000#32) i)
      (Ideal.ofBits .f32 0x42800000#32) = _
  rw [Ideal.hostReduceAdd_total reducesTo_S64x1_S_d0_1 (fun b => b.elim0) (lossCol m c) _ i, sum_col]
  rfl

/-- THE RUN, read: the result at the mean of `lossCol`'s rows, the two arguments unchanged. -/
theorem run : θ_run defs (onTc (τ := τ) (main (F := Ideal))) ⟨m, fun _ => 0, ρ⟩ fun r => ∀ c : Dev nD,
      r.2.mem ((c.tc : Thread nD τ).loc main_v10) = (fun _ => mean64 fun p => lossCol m c (ix2 p (0 : Fin 1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v10 (Pipeline.mem_restRefs_of main_v10 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Value

end
-- ==== Proof.KernelHost.lean ====
/-
  The two arrays the kernel's region reads, as functions of the program's arguments.

  Before the region the program cuts channel 3 out of both arguments: the query column `q[b] = out_pc[b, 3]`
  (shape [64, 1]) and the point rows `gt_pc[b, j, 3]`, and pads each point row from 500000 to 507904 columns
  with copies of the row's own query value:

      padded[b, j] = gt_pc[b, j, 3]   (j < 500000),        padded[b, j] = out_pc[b, 3]   (500000 ≤ j).
-/
import proofs.«138048_j43198781063802_1_alg».proof.Proof.Gen.KernelIdeal.Frame
import Idealize.ShloMosaic.Lib.Pipeline.Value
import Idealize.ShloMosaic.Lib.ValueIdx
import Idealize.ShloMosaic.Lib.StableHlo.Run
import Idealize.ShloMosaic.PureOps.Ideal

noncomputable section

open Idealize.ShloMosaic Idealize.ShloMosaic.TcCoe Idealize.SL.Sem Idealize.ShloMosaic.ValueIdx

namespace Cert.KernelIdeal.Host

open Cert.KernelIdeal Cert.KernelIdeal.Gen

/-- The query values as a vector of 64: channel 3 of the first argument. -/
def qvec {α : Type} (a0 : S64x4.Idx → α) : S64.Idx → α :=
  shapeCast S64 (extractStridedSlice S64x1 ![0, 3] a0 slices_S64x4_S64x1_0_3) shapeCasts_S64x1_S64

/-- The query column [64, 1]. -/
def qcol {α : Type} (a0 : S64x4.Idx → α) : S64x1.Idx → α :=
  broadcastInDim S64x1 ![0] bcast_S64_S64x1_0 (qvec a0)

/-- The padded point rows [64, 507904]. -/
def padded {α : Type} (a0 : S64x4.Idx → α) (a1 : S64x500000x4.Idx → α) : S64x507904.Idx → α :=
  concatenate S64x507904 1
    [⟨S64x500000, shapeCast S64x500000 (extractStridedSlice S64x500000x1 ![0, 0, 3] a1 slices_S64x500000x4_S64x500000x1_0_0_3)
        shapeCasts_S64x500000x1_S64x500000⟩,
      ⟨S64x7904, broadcastInDim S64x7904 ![0, 1] bcast_S64x1_S64x7904_0_1 (qcol a0)⟩]
    concatenates_S64x500000_S64x7904_S64x507904_d1

/-! ## Read at an index -/

theorem qvec_apply {α : Type} (a0 : S64x4.Idx → α) (p : Fin 64) : qvec a0 (ix1 p) = a0 (ix2 p (3 : Fin 4)) := by
  unfold qvec
  refine (shapeCast_apply _ shapeCasts_S64x1_S64 (ix1 p) (ix2 p (0 : Fin 1)) ?_).trans ?_
  · rw [Shape.rowMajor_val_one, Shape.rowMajor_val_two]
    show p.val * 1 + 0 = p.val
    omega
  · refine extractStridedSlice_apply ![0, 3] a0 slices_S64x4_S64x1_0_3 (ix2 p (0 : Fin 1)) (ix2 p (3 : Fin 4)) fun a => ?_
    match a with
    | ⟨0, _⟩ => show p.val = 0 + p.val; omega
    | ⟨1, _⟩ => show 3 = 3 + 0; rfl

/-- The query column holds, in row `p`, channel 3 of row `p` of the first argument. -/
theorem qcol_apply {α : Type} (a0 : S64x4.Idx → α) (p : Fin 64) (z : Fin 1) : qcol a0 (ix2 p z) = a0 (ix2 p (3 : Fin 4)) := by
  unfold qcol
  refine (broadcastInDim_apply _ bcast_S64_S64x1_0 (qvec a0) (ix2 p z) (ix1 p) fun a => ?_).trans (qvec_apply a0 p)
  match a with
  | ⟨0, _⟩ => show p.val = if (64 : Nat) = 1 then 0 else p.val; rw [if_neg (by decide)]

/-- Below column 500000 the padded row is the point row's channel 3. -/
theorem padded_apply_lo {α : Type} (a0 : S64x4.Idx → α) (a1 : S64x500000x4.Idx → α) (p : Fin 64) (j : Fin 507904)
    (hj : j.val < 500000) : padded a0 a1 (ix2 p j) = a1 (ix3 p (⟨j.val, hj⟩ : Fin 500000) (3 : Fin 4)) := by
  unfold padded
  refine (concatenate_pair_apply_left (t := S64x507904) (s₁ := S64x500000) (s₂ := S64x7904) (1 : Fin 2) _ _
    concatenates_S64x500000_S64x7904_S64x507904_d1 (ix2 p j) rfl
    (ix2 p (⟨j.val, hj⟩ : Fin 500000)) fun b => ?_).trans ?_
  · match b with
    | ⟨0, _⟩ => rfl
    | ⟨1, _⟩ => rfl
  · refine (shapeCast_apply _ shapeCasts_S64x500000x1_S64x500000 (ix2 p (⟨j.val, hj⟩ : Fin 500000))
      (ix3 p (⟨j.val, hj⟩ : Fin 500000) (0 : Fin 1)) ?_).trans ?_
    · rw [Shape.rowMajor_val_three, Shape.rowMajor_val_two]
      show (p.val * 500000 + j.val) * 1 + 0 = p.val * 500000 + j.val
      omega
    · refine extractStridedSlice_apply ![0, 0, 3] a1 slices_S64x500000x4_S64x500000x1_0_0_3
        (ix3 p (⟨j.val, hj⟩ : Fin 500000) (0 : Fin 1)) (ix3 p (⟨j.val, hj⟩ : Fin 500000) (3 : Fin 4)) fun a => ?_
      match a with
      | ⟨0, _⟩ => show p.val = 0 + p.val; omega
      | ⟨1, _⟩ => show j.val = 0 + j.val; omega
      | ⟨2, _⟩ => show 3 = 3 + 0; rfl

/-- From column 500000 on the padded row repeats the row's query value. -/
theorem padded_apply_hi {α : Type} (a0 : S64x4.Idx → α) (a1 : S64x500000x4.Idx → α) (p : Fin 64) (j : Fin 507904)
    (hj : 500000 ≤ j.val) : padded a0 a1 (ix2 p j) = a0 (ix2 p (3 : Fin 4)) := by
  obtain ⟨k, hk⟩ : ∃ k : Fin 7904, k.val + 500000 = j.val :=
    ⟨⟨j.val - 500000, by have := j.isLt; omega⟩, Nat.sub_add_cancel hj⟩
  unfold padded
  refine (concatenate_pair_apply_right (t := S64x507904) (s₁ := S64x500000) (s₂ := S64x7904) (1 : Fin 2) _ _
    concatenates_S64x500000_S64x7904_S64x507904_d1 (ix2 p j) rfl rfl
    (ix2 p k) (fun b hb => ?_) ?_).trans ?_
  · match b with
    | ⟨0, _⟩ => rfl
    | ⟨1, _⟩ => exact absurd rfl hb
  · exact hk
  · refine (broadcastInDim_apply _ bcast_S64x1_S64x7904_0_1 (qcol a0) (ix2 p k)
      (ix2 p (0 : Fin 1)) fun a => ?_).trans (qcol_apply a0 p 0)
    match a with
    | ⟨0, _⟩ => show p.val = if (64 : Nat) = 1 then 0 else p.val; rw [if_neg (by decide)]
    | ⟨1, _⟩ => show (0 : Nat) = if (1 : Nat) = 1 then 0 else k.val; rw [if_pos rfl]

/-! ## The region finds these two arrays -/

variable (m : (ℓ : Loc nD τ sig) → Buf (Elt Ideal) ℓ)

/-- The first window's array is the query column of the first argument. -/
theorem V_qcol (c : Dev nD) :
    (V m c main_v7 : S64x1.Idx → EReal) = qcol (m ((c : Thread nD τ).loc main_arg0)) := by
  show StableHlo.after hostOps0 (fun b => m (c, b)) (Proc.devRef .tc main_v7) = _
  after_results
  rfl

/-- The second window's array is the padded point rows of the two arguments. -/
theorem V_padded (c : Dev nD) :
    (V m c main_v6 : S64x507904.Idx → EReal)
      = padded (m ((c : Thread nD τ).loc main_arg0)) (m ((c : Thread nD τ).loc main_arg1)) := by
  show StableHlo.after hostOps0 (fun b => m (c, b)) (Proc.devRef .tc main_v6) = _
  after_results
  rfl

end Cert.KernelIdeal.Host

end
-- ==== Proof.Bridge.lean ====
/-
  The kernel program's result is the loss of its two arguments, when the first argument's entries are real numbers.

  The region finds the query column `q[p] = out_pc[p, 3]` and the padded point rows.  In row `p` the region leaves
  the zero word plus `∑ j < 507904, (q[p] - padded[p, j])²`.  Below column 500000 the padded row is `gt_pc[p, j, 3]`;
  from there on it repeats `q[p]`, and those 7904 terms are `(q[p] - q[p])² = 0` because `q[p]` is real
  (`SqDist.sum_pad`).  So each row is that row's loss, and the host's mean of the rows is the loss.
-/
import proofs.«138048_j43198781063802_1_alg».proof.Proof.KernelValue
import proofs.«138048_j43198781063802_1_alg».proof.Proof.KernelHost

noncomputable section

open Idealize.ShloMosaic Idealize.ShloMosaic.TcCoe Idealize.SL.Sem Idealize.ShloMosaic.ValueIdx

namespace Cert.KernelIdeal.Bridge

open Cert.KernelIdeal Cert.KernelIdeal.Gen Cert.KernelIdeal.Acc Cert.KernelIdeal.Value Cert.KernelIdeal.Host Cert.SqDist

variable (m : (ℓ : Loc nD τ sig) → Buf (Elt Ideal) ℓ)

/-- Row `p` of the column the region leaves is row `p`'s loss, when the row's query value is a real number. -/
theorem lossCol_eq (c : Dev nD) (p : Fin 64) (a0 : S64x4.Idx → EReal) (a1 : S64x500000x4.Idx → EReal)
    (hq : (V m c main_v7 : S64x1.Idx → EReal) = qcol a0)
    (hg : (V m c main_v6 : S64x507904.Idx → EReal) = padded a0 a1)
    (r : ℝ) (hr : a0 (ix2 p (3 : Fin 4)) = (r : EReal)) :
    lossCol m c (ix2 p (0 : Fin 1)) = lossRow (a0 (ix2 p (3 : Fin 4))) (ptAt a1 p) := by
  have hqp : qAt m c p.val = (r : EReal) := by
    unfold qAt
    rw [dif_pos p.isLt, hq]
    exact (qcol_apply a0 p 0).trans hr
  have hlo : ∀ j, j < 500000 → (if j < 507904 then gAt m c p.val j else (r : EReal)) = ptAt a1 p j := by
    intro j hj
    have hj' : j < 507904 := by omega
    rw [if_pos hj']
    unfold gAt ptAt
    rw [dif_pos ⟨p.isLt, hj'⟩, dif_pos hj, hg]
    exact padded_apply_lo a0 a1 p ⟨j, hj'⟩ hj
  have hhi : ∀ j, 500000 ≤ j → (if j < 507904 then gAt m c p.val j else (r : EReal)) = (r : EReal) := by
    intro j hj
    by_cases hj' : j < 507904
    · rw [if_pos hj']
      unfold gAt
      rw [dif_pos ⟨p.isLt, hj'⟩, hg]
      exact (padded_apply_hi a0 a1 p ⟨j, hj'⟩ hj).trans hr
    · rw [if_neg hj']
  unfold lossCol lossRow
  show Ideal.ofBits .f32 0x00000000#32 + ∑ j ∈ Finset.range 507904, sqd (qAt m c p.val) (gAt m c p.val j) = _
  rw [hqp, hr]
  refine congrArg (Ideal.ofBits .f32 0x00000000#32 + ·) ?_
  rw [← sum_pad r _ (ptAt a1 p) hlo hhi]
  exact Finset.sum_congr rfl fun j hj => by rw [if_pos (Finset.mem_range.mp hj)]

/-- THE KERNEL PROGRAM'S RESULT is the loss of its two arguments. -/
theorem result_loss (c : Dev nD) (a0 : S64x4.Idx → EReal) (a1 : S64x500000x4.Idx → EReal)
    (h0 : m ((c.tc : Thread nD τ).loc main_arg0) = a0) (h1 : m ((c.tc : Thread nD τ).loc main_arg1) = a1)
    (hfin : ∀ p : Fin 64, ∃ r : ℝ, a0 (ix2 p (3 : Fin 4)) = (r : EReal)) :
    (mean64 fun p => lossCol m c (ix2 p (0 : Fin 1))) = loss a0 a1 := by
  unfold loss
  refine congrArg mean64 (funext fun p => ?_)
  obtain ⟨r, hr⟩ := hfin p
  refine lossCol_eq m c p a0 a1 ?_ ?_ r hr
  · rw [V_qcol m c, h0]
  · rw [V_padded m c, h0, h1]

end Cert.KernelIdeal.Bridge

end
-- ==== Proof.RefValue.lean ====
/-
  The reference's result is the loss.

  The reference subtracts channel 3 of the points from the (broadcast) channel 3 of the query, squares, sums each
  row's 500000 × 1 entries from the zero word, sums the 64 rows from the zero word, and divides by the word of 64.0.
-/
import proofs.«138048_j43198781063802_1_alg».proof.Proof.Gen.ReferenceIdeal.Read
import proofs.«138048_j43198781063802_1_alg».proof.Proof.Loss

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.SqDist

/-! ## A row's sum over its two trailing axes -/

/-- Dropping the two trailing axes of `(p, j, z)` leaves `p`; -/
theorem drop_ix3 (p : Fin 64) (j : Fin 500000) (z : Fin 1) :
    reducesTo_S64x500000x1_S64_d1_2.drop (ix3 p j z) = ix1 p := by
  funext b
  match b with
  | ⟨0, _⟩ => rfl

/-- and an index that drops to `p` is `(p, ·, ·)`. -/
theorem eq_ix3_of_drop (i : S64x500000x1.Idx) (p : Fin 64) (h : reducesTo_S64x500000x1_S64_d1_2.drop i = ix1 p) :
    i = ix3 p (i 1) (0 : Fin 1) := by
  have h0 : i 0 = p := congrFun h (0 : Fin 1)
  funext a
  match a with
  | ⟨0, _⟩ => exact h0
  | ⟨1, _⟩ => rfl
  | ⟨2, _⟩ => exact Subsingleton.elim (α := Fin 1) _ _

/-- The entries of row `p`, one per column. -/
def rowEmb (p : Fin 64) : Fin 500000 ↪ S64x500000x1.Idx :=
  ⟨fun j => ix3 p j (0 : Fin 1), fun j j' h => congrFun h (1 : Fin 3)⟩

theorem filter_drop (p : Fin 64) :
    Finset.univ.filter (fun i : S64x500000x1.Idx => reducesTo_S64x500000x1_S64_d1_2.drop i = ix1 p)
      = Finset.univ.map (rowEmb p) := by
  ext i
  simp only [Finset.mem_filter, Finset.mem_univ, true_and, Finset.mem_map, rowEmb, Function.Embedding.coeFn_mk]
  exact ⟨fun h => ⟨i 1, (eq_ix3_of_drop i p h).symm⟩, fun ⟨j, hj⟩ => hj ▸ drop_ix3 p j 0⟩

/-- The host's sum over the two trailing axes, at row `p`: the initial value plus the sum over the row's columns. -/
theorem rowsum_apply (y : S64x500000x1.Idx → EReal) (init : EReal) (p : Fin 64) :
    Ideal.hostReduceAdd reducesTo_S64x500000x1_S64_d1_2 y init (ix1 p)
      = init + ∑ j : Fin 500000, y (ix3 p j (0 : Fin 1)) := by
  unfold Ideal.hostReduceAdd
  rw [filter_drop, Finset.sum_map]
  rfl

/-! ## The stages, read -/

/-- The squared difference the reference forms at `(p, j, 0)`. -/
theorem sq_apply (a0 : S64x4.Idx → EReal) (a1 : S64x500000x4.Idx → EReal) (p : Fin 64) (j : Fin 500000) :
    val_main_v5 (F := Ideal) a0 a1 (ix3 p j (0 : Fin 1))
      = sqd (a0 (ix2 p (3 : Fin 4))) (a1 (ix3 p j (3 : Fin 4))) := by
  have hd : val_main_v4 (F := Ideal) a0 a1 (ix3 p j (0 : Fin 1))
      = a0 (ix2 p (3 : Fin 4)) - a1 (ix3 p j (3 : Fin 4)) := by
    have e0 : idx_main_v0 (idx_main_v1 (idx_main_v3 (ix3 p j (0 : Fin 1)))) = ix2 p (3 : Fin 4) :=
      funext fun a => Fin.ext (by match a with | ⟨0, _⟩ => rfl | ⟨1, _⟩ => rfl)
    have e2 : idx_main_v2 (ix3 p j (0 : Fin 1)) = ix3 p j (3 : Fin 4) :=
      funext fun a => Fin.ext (by match a with | ⟨0, _⟩ => rfl | ⟨1, _⟩ => rfl | ⟨2, _⟩ => rfl)
    rw [val_main_v4_apply, val_main_v3_apply, val_main_v1_apply, val_main_v0_apply, val_main_v2_apply, e0, e2]
    rfl
  rw [val_main_v5_apply, hd]
  rfl

/-- Row `p` of the reference's row sums is that row's loss. -/
theorem row_apply (a0 : S64x4.Idx → EReal) (a1 : S64x500000x4.Idx → EReal) (p : Fin 64) :
    val_main_v6 (F := Ideal) a0 a1 (ix1 p) = lossRow (a0 (ix2 p (3 : Fin 4))) (ptAt a1 p) := by
  unfold val_main_v6
  simp only [Host.reduceAdd, Ideal.hostReduceAdd_def]
  rw [rowsum_apply]
  unfold lossRow
  refine congrArg₂ (· + ·) rfl ?_
  rw [Finset.sum_range]
  refine Finset.sum_congr rfl fun j _ => ?_
  rw [sq_apply]
  unfold ptAt
  rw [dif_pos j.isLt]

/-- THE REFERENCE'S RESULT is the loss of its two arguments. -/
theorem result_eq (a0 : S64x4.Idx → EReal) (a1 : S64x500000x4.Idx → EReal) :
    val_main_v8 (F := Ideal) a0 a1 = fun _ => loss a0 a1 := by
  funext i
  rw [val_main_v8_apply, val_main_v7_apply]
  unfold loss mean64
  show Ideal.div (Ideal.ofBits .f32 0x00000000#32 + ∑ j : S64.Idx, val_main_v6 (F := Ideal) a0 a1 j)
      (Ideal.ofBits .f32 0x42800000#32) = _
  rw [sum_idx1]
  refine congrArg (fun s => Ideal.div (Ideal.ofBits .f32 0x00000000#32 + s) (Ideal.ofBits .f32 0x42800000#32)) ?_
  exact Finset.sum_congr rfl fun p _ => row_apply a0 a1 p

end Cert.ReferenceIdeal.RefValue

end
-- ==== Proof.Finite.lean ====
/-
  The precondition, read: every entry of the first argument is a real number.

  The precondition states `all(|out_pc| < +∞) ∧ all(|gt_pc| < +∞)` as one bit.  An extended real whose absolute value
  `max x (-x)` is below `+∞` is neither infinity, so it is a real number.  Only the first conjunct is needed: the
  padding repeats entries of `out_pc`, and `x - x = 0` needs `x` real.
-/
import proofs.«138048_j43198781063802_1_alg».proof.Pre_finite_inputs
import proofs.«138048_j43198781063802_1_alg».proof.Proof.Gen.Pre_finite_inputs
import Idealize.ShloMosaic.Lib.ReduceAll
import Idealize.ShloMosaic.Lib.ValueIdx
import Idealize.ShloMosaic.PureOps.Ideal

noncomputable section

open Idealize.ShloMosaic Idealize.ShloMosaic.ValueIdx

namespace Cert.Pre_finite_inputs.Finite

open Cert.Pre_finite_inputs Cert.Pre_finite_inputs.Facts

instance : Subsingleton S_.Idx := ⟨fun a b => funext fun d => d.elim0⟩

/-- The word `0x7F800000` is `+∞`. -/
theorem top_word : Ideal.ofBits .f32 0x7F800000#32 = (⊤ : EReal) := by simp [Ideal.ofBits, Ideal.ieee]

/-- An ordered less-than comparison that answers 1 holds. -/
theorem lt_of_cmp_olt (x y : EReal) (h : Ideal.cmp .olt x y = 1#1) : x < y := by
  unfold Ideal.cmp at h
  by_contra hn
  simp [hn] at h

/-- An extended real whose absolute value is below `+∞` is a real number. -/
theorem real_of_abs_lt_top (x : EReal) (h : max x (-x) < ⊤) : ∃ r : ℝ, x = (r : EReal) := by
  induction x using EReal.rec with
  | bot => simp at h
  | top => simp at h
  | coe r => exact ⟨r, rfl⟩

/-- Under the precondition every entry of the first argument is a real number. -/
theorem real_of_pre [Facts] (a0 : FVec Ideal S64x4 .f32) (a1 : FVec Ideal S64x500000x4 .f32)
    (h : fn (F := Ideal) a0 a1 = fun _ => 1#1) (i : S64x4.Idx) : ∃ r : ℝ, a0 i = (r : EReal) := by
  have h0 := congrFun h ix0
  dsimp only [fn] at h0
  obtain ⟨h3, -⟩ := IntOp.andi_eq_one.1 h0
  have hi := Host.reduce_andi_all _ _ _ _ _ h3 i
  have hc : Ideal.cmp .olt (max (a0 i) (-(a0 i))) (Ideal.ofBits .f32 0x7F800000#32) = 1#1 := hi
  rw [top_word] at hc
  exact real_of_abs_lt_top _ (lt_of_cmp_olt _ _ hc)

end Cert.Pre_finite_inputs.Finite

end
-- ==== Proof.lean ====
/-
  The squared-distance loss kernel against its jnp reference.

  Both programs take `out_pc : f32[64, 4]` and `gt_pc : f32[64, 500000, 4]` and return the scalar

      loss = ( 0 + ∑ p < 64, ( 0 + ∑ j < 500000, (out_pc[p, 3] - gt_pc[p, j, 3])² ) ) / 64

  over the extended reals (`SqDist.loss`).

  The reference forms it directly (`RefValue.result_eq`).  The kernel program pads each point row to
  507904 = 31 · 16384 columns with the row's own query value, accumulates the 31 column tiles of each block of 32
  rows in a grid of 2 × 31 points (`Acc.outs_apply`, `Value.final`), and takes the mean of the 64 row sums on the
  host (`Value.result_eq`).  A sum of 31 tiles is the sum over the padded row; the 7904 padded columns add
  `(x - x)² = 0` each, which is where the input's finiteness is used (`Bridge.result_loss`, `Finite.real_of_pre`):
  at an infinite query value the difference `x - x` would not be zero.

  The idealized kernel is the kernel's own text read over the extended reals (no rewrite was applied), so
  `preserves` has nothing to state.  The three frames are the generated ones.
-/
import proofs.«138048_j43198781063802_1_alg».proof.Defs
import proofs.«138048_j43198781063802_1_alg».proof.Proof.Gen.Kernel
import proofs.«138048_j43198781063802_1_alg».proof.Proof.Gen.Kernel.Skeleton
import proofs.«138048_j43198781063802_1_alg».proof.Proof.Gen.Kernel.Launch
import proofs.«138048_j43198781063802_1_alg».proof.Proof.Gen.Kernel.Points
import proofs.«138048_j43198781063802_1_alg».proof.Proof.Gen.Kernel.Frame
import proofs.«138048_j43198781063802_1_alg».proof.Proof.Gen.KernelIdeal
import proofs.«138048_j43198781063802_1_alg».proof.Proof.Gen.KernelIdeal.Skeleton
import proofs.«138048_j43198781063802_1_alg».proof.Proof.Gen.KernelIdeal.Launch
import proofs.«138048_j43198781063802_1_alg».proof.Proof.Gen.KernelIdeal.Points
import proofs.«138048_j43198781063802_1_alg».proof.Proof.Gen.KernelIdeal.Frame
import proofs.«138048_j43198781063802_1_alg».proof.Proof.Gen.ReferenceIdeal
import proofs.«138048_j43198781063802_1_alg».proof.Proof.Gen.ReferenceIdeal.Run
import proofs.«138048_j43198781063802_1_alg».proof.Proof.Gen.ReferenceIdeal.Read
import proofs.«138048_j43198781063802_1_alg».proof.Proof.Gen.Pre_finite_inputs
import proofs.«138048_j43198781063802_1_alg».proof.Proof.Bridge
import proofs.«138048_j43198781063802_1_alg».proof.Proof.RefValue
import proofs.«138048_j43198781063802_1_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx Cert.SqDist

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten on the way to the idealized kernel. -/
theorem preserves : Cert.preserves_Kernel_KernelIdeal := trivial

/-- From memories that agree on the two arguments, with the first argument finite, both programs end with the loss
    of the arguments as their result. -/
theorem algebraic : Cert.algebraic_KernelIdeal_ReferenceIdeal := by
  intro m ρ m' ρ' hpre hagree
  refine ⟨fun c _ => loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩)
      (Cert.KernelIdeal.Value.run m ρ)
    exact funext fun _ => Cert.KernelIdeal.Bridge.result_loss m c _ _ rfl rfl
      (fun p => Cert.Pre_finite_inputs.Finite.real_of_pre _ _ (hpre c) (ix2 p (3 : Fin 4)))
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v8_eq, Cert.ReferenceIdeal.RefValue.result_eq, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
